-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg4 : FVec F S16x8 .f32) (main_arg5 : FVec F S8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x8 .f32 := Host.absf main_arg4
  let main_cst_6 : FVec F S_ .f32 := constant S_ .f32 0x7F800000#32
  let main_v20 : FVec F S16x8 .f32 := broadcastInDim S16x8 ![] bcast_S_S16x8 main_cst_6
  let main_v21 : IVec S16x8 1 := cmpf .olt main_v19 main_v20
  let main_c_7 : IVec S_ 1 := constantI S_ 1 1#1
  let main_v22 : IVec S_ 1 := (fun x v => Host.reduce IntOp.andi x v reducesTo_S16x8_S_d0_1 h_S_) main_v21 main_c_7
  let main_v23 : IVec S_ 1 := andi main_v18 main_v22
  let main_v24 : FVec F S8 .f32 := Host.absf main_arg5
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x16 .f32) (main_arg3 : FVec F S16 .f32) (main_arg4 : FVec F S16x8 .f32) (main_arg5 : FVec F S8 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S1x16 : Shape := ⟨2, ![1, 16]⟩
abbrev S1x8 : Shape := ⟨2, ![1, 8]⟩
abbrev S10000x16 : Shape := ⟨2, ![10000, 16]⟩
abbrev S10000x8 : Shape := ⟨2, ![10000, 8]⟩
abbrev S200x10000 : Shape := ⟨2, ![200, 10000]⟩
abbrev S200x8 : Shape := ⟨2, ![200, 8]⟩
abbrev S200x16 : Shape := ⟨2, ![200, 16]⟩
abbrev S200 : Shape := ⟨1, ![200]⟩
abbrev S200x1 : Shape := ⟨2, ![200, 1]⟩

abbrev nBuf : Space → Nat
  | .hbm => 11
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S1x16, .f32⟩
  | .hbm, ⟨7, _⟩ => ⟨S1x8, .f32⟩
  | .hbm, ⟨8, _⟩ => ⟨S10000x16, .f32⟩
  | .hbm, ⟨9, _⟩ => ⟨S10000x8, .f32⟩
  | .hbm, ⟨10, _⟩ => ⟨S10000x8, .f32⟩
  | .local _ .vmem, ⟨0, _⟩ => ⟨S10000x128, .f32⟩
  | .local _ .vmem, ⟨1, _⟩ => ⟨S128x16, .f32⟩
  | .local _ .vmem, ⟨2, _⟩ => ⟨S10000x16, .f32⟩
  | .local _ .vmem, ⟨3, _⟩ => ⟨S200x10000, .f32⟩
  | .local _ .vmem, ⟨4, _⟩ => ⟨S200x10000, .f32⟩
  | .local _ .vmem, ⟨5, _⟩ => ⟨S10000x16, .f32⟩
  | .local _ .vmem, ⟨6, _⟩ => ⟨S16x8, .f32⟩
  | .local _ .vmem, ⟨7, _⟩ => ⟨S1x16, .f32⟩
  | .local _ .vmem, ⟨8, _⟩ => ⟨S200x8, .f32⟩
  | .local _ .vmem, ⟨9, _⟩ => ⟨S200x8, .f32⟩
  | .local _ .vmem, ⟨10, _⟩ => ⟨S200x10000, .f32⟩
  | .local _ .vmem, ⟨11, _⟩ => ⟨S200x10000, .f32⟩
  | .local _ .vmem, ⟨12, _⟩ => ⟨S10000x8, .f32⟩
  | .local _ .vmem, ⟨13, _⟩ => ⟨S1x8, .f32⟩
  | .local _ .vmem, ⟨14, _⟩ => ⟨S200x8, .f32⟩
  | .local _ .vmem, ⟨15, _⟩ => ⟨S200x8, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S200x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S16_S1x16 : S16.ShapeCasts S1x16
  shapeCasts_S8_S1x8 : S8.ShapeCasts S1x8
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  inb_S200x10000_S200x10000_0_0 : ∀ a, (![0, 0] : Fin 2 → Nat) a + S200x10000.size a ≤ S200x10000.size a
  h_S200x10000 : 0 < S200x10000.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  inb_S16x8_S16x8_0_0 : ∀ a, (![0, 0] : Fin 2 → Nat) a + S16x8.size a ≤ S16x8.size a
  h_S16x8 : 0 < S16x8.numel
  inb_S200x8_S200x8_0_0 : ∀ a, (![0, 0] : Fin 2 → Nat) a + S200x8.size a ≤ S200x8.size a
  h_S200x8 : 0 < S200x8.numel
  inb_S10000x8_S10000x8_0_0 : ∀ a, (![0, 0] : Fin 2 → Nat) a + S10000x8.size a ≤ S10000x8.size a
  h_S10000x8 : 0 < S10000x8.numel
  shapeCasts_S10000x8_S10000x8 : S10000x8.ShapeCasts S10000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S200x8 : S1x8.Broadcasts S200x8
  reduces_S200x8_S200 : S200x8.Reduces [1] S200
  shapeCasts_S200_S200x1 : S200.ShapeCasts S200x1
  broadcasts_S200x1_S200x8 : S200x1.Broadcasts S200x8
  dot_S10000x128_S128x16_S10000x16_1_0_0_1_n_n_wf : DotDims.WF S10000x128 S128x16 S10000x16 [1] [0] [0] [1] [] []
  dot_S200x10000_S10000x16_S200x16_1_0_0_1_n_n_wf : DotDims.WF S200x10000 S10000x16 S200x16 [1] [0] [0] [1] [] []
  dot_S200x16_S16x8_S200x8_1_0_0_1_n_n_wf : DotDims.WF S200x16 S16x8 S200x8 [1] [0] [0] [1] [] []
  dot_S200x10000_S10000x8_S200x8_1_0_0_1_n_n_wf : DotDims.WF S200x10000 S10000x8 S200x8 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .f32 = 32 ∨ (Rect.block (s := S10000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x8.size a ≤ S16x8.size a
  hwx1_2 : ∀ i : grid1.Coords, EltTy.bits .f32 = 32 ∨ (Rect.block (s := S16x8) S16x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x8.size a ≤ S10000x8.size a
  hwx1_4 : ∀ i : grid1.Coords, EltTy.bits .f32 = 32 ∨ (Rect.block (s := S10000x8) S200x8.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x8.size a ≤ S10000x8.size a
  hwx2_1 : ∀ i : grid2.Coords, EltTy.bits .f32 = 32 ∨ (Rect.block (s := S10000x8) S10000x8.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x8.size a ≤ S1x8.size a
  hwx2_2 : ∀ i : grid2.Coords, EltTy.bits .f32 = 32 ∨ (Rect.block (s := S1x8) S1x8.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S200x8.size a ≤ S10000x8.size a
  hwx2_3 : ∀ i : grid2.Coords, EltTy.bits .f32 = 32 ∨ (Rect.block (s := S10000x8) S200x8.size (cc2_transform_3 i) (hinb2_3 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf
def dot_S200x16_S16x8_S200x8_1_0_0_1_n_n : DotDims S200x16 S16x8 S200x8 where
  lhsContracting := [1]
  rhsContracting := [0]
  lhsNonContracting := [0]
  rhsNonContracting := [1]
  lhsBatch := []
  rhsBatch := []
  wf := dot_S200x16_S16x8_S200x8_1_0_0_1_n_n_wf
def dot_S200x10000_S10000x8_S200x8_1_0_0_1_n_n : DotDims S200x10000 S10000x8 S200x8 where
  lhsContracting := [1]
  rhsContracting := [0]
  lhsNonContracting := [0]
  rhsNonContracting := [1]
  lhsBatch := []
  rhsBatch := []
  wf := dot_S200x10000_S10000x8_S200x8_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v2) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S200x8.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S200x8.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S10000x16 : Shape := ⟨2, ![10000, 16]⟩
abbrev S1x16 : Shape := ⟨2, ![1, 16]⟩
abbrev S_ : Shape := ⟨0, ![]⟩
abbrev S10000x8 : Shape := ⟨2, ![10000, 8]⟩
abbrev S1x8 : Shape := ⟨2, ![1, 8]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S10000x8, .f32⟩
  | .hbm, ⟨15, _⟩ => ⟨S10000x8, .f32⟩
  | .hbm, ⟨16, _⟩ => ⟨S1x8, .f32⟩
  | .hbm, ⟨17, _⟩ => ⟨S10000x8, .f32⟩
  | .hbm, ⟨18, _⟩ => ⟨S10000x8, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x8, .f32⟩
  | .hbm, ⟨26, _⟩ => ⟨S10000x8, .f32⟩
  | .hbm, ⟨27, _⟩ => ⟨S10000x8, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x8, .f32⟩
  | .hbm, ⟨33, _⟩ => ⟨S10000x8, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_v12 : Ref sig .tc := ⟨.hbm, 33, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  bcast_S8_S1x8_1 : S8.BroadcastsInDim S1x8 (![1] : Fin 1 → Fin S1x8.rank)
  bcast_S1x8_S10000x8_0_1 : S1x8.BroadcastsInDim S10000x8 (![0, 1] : Fin 2 → Fin S10000x8.rank)
  reducesTo_S10000x8_S10000_d1 : S10000x8.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x8_0_1 : S10000x1.BroadcastsInDim S10000x8 (![0, 1] : Fin 2 → Fin S10000x8.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x8_S10000x8_1_0_0_1_n_n_wf : DotDims.WF S10000x16 S16x8 S10000x8 [1] [0] [0] [1] [] []
  dot_S10000x10000_S10000x8_S10000x8_1_0_0_1_n_n_wf : DotDims.WF S10000x10000 S10000x8 S10000x8 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf
def dot_S10000x10000_S10000x8_S10000x8_1_0_0_1_n_n : DotDims S10000x10000 S10000x8 S10000x8 where
  lhsContracting := [1]
  rhsContracting := [0]
  lhsNonContracting := [0]
  rhsNonContracting := [1]
  lhsBatch := []
  rhsBatch := []
  wf := dot_S10000x10000_S10000x8_S10000x8_1_0_0_1_n_n_wf

class Facts : Prop extends Facts₀ where

variable [Facts]
-- ==== Proof.Spec.lean ====
/-
  A two-layer dense graph convolution followed by a row-wise log-softmax, as one function of the argument arrays,
  on the extended reals.

  With `x` the node features [10000, 128], `adj` the dense adjacency [10000, 10000], `W1` [128, 16], `b1` [16],
  `W2` [16, 8], `b2` [8]:
      z   = adj · (relu (adj · (x · W1) + b1) · W2) + b2          (`logits`)
      out = log-softmax of each row of z.
  Every matrix product is the plain sum over the contracted coordinate (`prod`), a bias is added to every row
  (`addRow`), `relu` joins with the word of zero. A row's maximum is folded from the word of minus infinity
  (`rowMax`) and its log-sum-exp is taken after the maximum is subtracted (`rowLse`).

  The log-softmax is written in two arrangements: `(z - M) - L` (`logSoftmaxShifted`: subtract the row maximum, then
  the logarithm of the sum) and `z - (L + M)` (`logSoftmaxJoined`: subtract their sum at once). They agree wherever
  the row is real-valued (proved where finiteness is read back): then M is a real (the maximum of finitely many reals), every
  exponential is a positive real, so is their sum, and its logarithm L is a real; on the reals
  `(a - m) - l = a - (l + m)`.
-/
import Idealize.ShloMosaic.PureOps.Ideal
import Idealize.ShloMosaic.Lib.ValueIdx

noncomputable section

open scoped BigOperators

namespace Cert.GcnSpec

open Idealize.ShloMosaic Idealize.ShloMosaic.ValueIdx

/-- A matrix of extended reals with `a` rows and `b` columns. -/
abbrev Mat (a b : ℕ) := (⟨2, ![a, b]⟩ : Shape).Idx → EReal
/-- A vector of extended reals of length `a`. -/
abbrev Vct (a : ℕ) := (⟨1, ![a]⟩ : Shape).Idx → EReal

/-- What the f32 word of zero denotes (never evaluated: both programs spell the same word). -/
abbrev zeroW : EReal := Ideal.ofBits .f32 0x00000000#32
/-- What the f32 word of minus infinity denotes. -/
abbrev negInfW : EReal := Ideal.ofBits .f32 0xFF800000#32

variable {M K N : ℕ}

/-- The matrix product: entry (p, j) is the sum over k of a(p, k) · b(k, j). -/
def prod (a : Mat M K) (b : Mat K N) : Mat M N := fun i => ∑ k : Fin K, a (ix2 (i 0) k) * b (ix2 k (i 1))

/-- A bias vector added to every row. -/
def addRow (a : Mat M N) (b : Vct N) : Mat M N := fun i => a i + b (ix1 (i 1))

/-- The rectifier: the join with zero. -/
def relu (a : Mat M N) : Mat M N := fun i => max (a i) zeroW

/-- The maximum of row `p`, folded from minus infinity. -/
def rowMax (z : Mat M N) (p : Fin M) : EReal := (Finset.univ : Finset (Fin N)).fold max negInfW fun l => z (ix2 p l)

/-- The logarithm of the sum of the exponentials of row `p` shifted by its maximum. -/
def rowLse (z : Mat M N) (p : Fin M) : EReal := Ideal.log (∑ l : Fin N, Ideal.exp (z (ix2 p l) - rowMax z p))

/-- Log-softmax along the rows, the maximum subtracted first and the log-sum-exp second. -/
def logSoftmaxShifted (z : Mat M N) : Mat M N := fun i => (z i - rowMax z (i 0)) - rowLse z (i 0)

/-- Log-softmax along the rows, the log-sum-exp and the maximum subtracted together. -/
def logSoftmaxJoined (z : Mat M N) : Mat M N := fun i => z i - (rowLse z (i 0) + rowMax z (i 0))

/-- The logits of the two-layer graph convolution. -/
def logits (x : Mat 10000 128) (adj : Mat 10000 10000) (w1 : Mat 128 16) (b1 : Vct 16) (w2 : Mat 16 8) (b2 : Vct 8) :
    Mat 10000 8 :=
  addRow (prod adj (prod (relu (addRow (prod adj (prod x w1)) b1)) w2)) b2

end Cert.GcnSpec

end
-- ==== Proof.RefValue.lean ====
/-
  The reference program computes, from the argument arrays x [10000, 128], adj [10000, 10000], W1 [128, 16],
  b1 [16], W2 [16, 8], b2 [8], the array

      log-softmax of each row of  z = adj · (relu (adj · (x · W1) + b1) · W2) + b2,

  with the log-softmax arranged as (z - M) - L: M the row's maximum, L the logarithm of the sum over the row of
  exp (z - M). This module reads the program's result, operation by operation, as exactly that function of
  the arguments, on the extended reals.

  * Every matrix product of the program is, at an entry (p, j), the sum over the contracted coordinate k of
    left (p, k) · right (k, j): this is the specification's product. The sums (128, 16 and twice 10000 terms)
    are never evaluated; they are compared term by term.
  * A bias of length n broadcast to one row and then down the rows reads at (p, j) as the bias at j.
  * The rectifier is the join with an array holding the word of zero everywhere; that word is kept as a word.
  * The row maximum is a fold of max over the row's eight entries from the word of minus infinity, joined once
    more with that same word; since b ≤ fold max b f, the second join changes nothing.
  * The maximum is broadcast back to (p, j) through a unit column, subtracted, and the exponential taken; the
    row sum of the exponentials starts from the word of zero, which denotes 0, and 0 + s = s; the sum goes
    through a unit column to the logarithm, which is broadcast back and subtracted.
-/
import proofs.«164230_g44289702756771_cont_8to1_c_1056_4_alg».proof.Proof.RefRead
import proofs.«164230_g44289702756771_cont_8to1_c_1056_4_alg».proof.Proof.Spec

noncomputable section

open scoped BigOperators

namespace Cert.GcnRef

open Idealize.ShloMosaic Idealize.ShloMosaic.ValueIdx Cert.ReferenceIdeal Cert.ReferenceIdeal.Gen
  Cert.ReferenceIdeal.Read Cert.GcnSpec

/-- Two rank-2 indices with the same two coordinates are equal. -/
local macro "idx2" : tactic =>
  `(tactic| exact funext fun a => Fin.ext (by match a with | ⟨0, _⟩ => rfl | ⟨1, _⟩ => rfl))
/-- Two rank-1 indices with the same coordinate are equal. -/
local macro "idx1" : tactic =>
  `(tactic| exact funext fun a => Fin.ext (by match a with | ⟨0, _⟩ => rfl))

/-! ## The specification's operations read at an entry -/

theorem prod_at {M K N : ℕ} (a : Mat M K) (b : Mat K N) (p : Fin M) (j : Fin N) :
    prod a b (ix2 p j) = ∑ k : Fin K, a (ix2 p k) * b (ix2 k j) := rfl

theorem addRow_at {M N : ℕ} (a : Mat M N) (b : Vct N) (p : Fin M) (j : Fin N) :
    addRow a b (ix2 p j) = a (ix2 p j) + b (ix1 j) := rfl

/-! ## The first layer -/

/-- x · W1. -/
theorem v0_eq (x0 : (⟨S10000x128, .f32⟩ : BufTy).Contents (Elt Ideal)) (x2 : (⟨S128x16, .f32⟩ : BufTy).Contents (Elt Ideal)) :
    val_main_v0 (F := Ideal) x0 x2 = prod x0 x2 := by
  funext i
  obtain ⟨p, j, rfl⟩ : ∃ (p : Fin 10000) (j : Fin 16), i = ix2 p j := ⟨i 0, i 1, eq_ix2 i⟩
  refine (val_main_v0_apply x0 x2 (ix2 p j)).trans ?_
  rw [prod_at]
  refine Finset.sum_congr rfl fun k _ => ?_
  rw [show lidx_main_v0 (ix2 p j) k = ix2 p k by idx2, show ridx_main_v0 (ix2 p j) k = ix2 k j by idx2]

/-- adj · (x · W1). -/
theorem v1_eq (x0 : (⟨S10000x128, .f32⟩ : BufTy).Contents (Elt Ideal)) (x1 : (⟨S10000x10000, .f32⟩ : BufTy).Contents (Elt Ideal)) (x2 : (⟨S128x16, .f32⟩ : BufTy).Contents (Elt Ideal)) :
    val_main_v1 (F := Ideal) x0 x1 x2 = prod x1 (prod x0 x2) := by
  funext i
  obtain ⟨p, j, rfl⟩ : ∃ (p : Fin 10000) (j : Fin 16), i = ix2 p j := ⟨i 0, i 1, eq_ix2 i⟩
  refine (val_main_v1_apply x0 x1 x2 (ix2 p j)).trans ?_
  rw [prod_at, v0_eq]
  refine Finset.sum_congr rfl fun k _ => ?_
  rw [show lidx_main_v1 (ix2 p j) k = ix2 p k by idx2, show ridx_main_v1 (ix2 p j) k = ix2 k j by idx2]

/-- b1 as one row, repeated down the rows: at (p, j) it is b1 at j. -/
theorem v3_at (x3 : (⟨S16, .f32⟩ : BufTy).Contents (Elt Ideal)) (p : Fin 10000) (j : Fin 16) :
    val_main_v3 (F := Ideal) x3 (ix2 p j) = x3 (ix1 j) := by
  rw [val_main_v3_apply, val_main_v2_apply]
  exact congrArg x3 (by idx1)

/-- adj · (x · W1) + b1. -/
theorem v4_eq (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) :
    val_main_v4 (F := Ideal) x0 x1 x2 x3 = addRow (prod x1 (prod x0 x2)) x3 := by
  funext i
  obtain ⟨p, j, rfl⟩ : ∃ (p : Fin 10000) (j : Fin 16), i = ix2 p j := ⟨i 0, i 1, eq_ix2 i⟩
  rw [val_main_v4_apply, Ideal.addf_def, v1_eq, v3_at, addRow_at]

/-- The array of zeros holds the word of zero at every entry. -/
theorem v5_at (i : S10000x16.Idx) : val_main_v5 (F := Ideal) i = zeroW := by
  rw [val_main_v5_apply, val_main_cst_apply, Ideal.ofBits_def]

/-- relu (adj · (x · W1) + b1). -/
theorem v6_eq (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) :
    val_main_v6 (F := Ideal) x0 x1 x2 x3 = relu (addRow (prod x1 (prod x0 x2)) x3) := by
  funext i
  rw [val_main_v6_apply, Ideal.maximumf_def, v4_eq, v5_at]
  rfl

/-! ## The second layer -/

/-- h · W2, with h the first layer's output. -/
theorem v7_eq (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x8, .f32⟩ : BufTy).Contents (Elt Ideal)) :
    val_main_v7 (F := Ideal) x0 x1 x2 x3 x4 = prod (relu (addRow (prod x1 (prod x0 x2)) x3)) x4 := by
  funext i
  obtain ⟨p, j, rfl⟩ : ∃ (p : Fin 10000) (j : Fin 8), i = ix2 p j := ⟨i 0, i 1, eq_ix2 i⟩
  refine (val_main_v7_apply x0 x1 x2 x3 x4 (ix2 p j)).trans ?_
  rw [prod_at, v6_eq]
  refine Finset.sum_congr rfl fun k _ => ?_
  rw [show lidx_main_v7 (ix2 p j) k = ix2 p k by idx2, show ridx_main_v7 (ix2 p j) k = ix2 k j by idx2]

/-- adj · (h · W2). -/
theorem v8_eq (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x8, .f32⟩ : BufTy).Contents (Elt Ideal)) :
    val_main_v8 (F := Ideal) x0 x1 x2 x3 x4 = prod x1 (prod (relu (addRow (prod x1 (prod x0 x2)) x3)) x4) := by
  funext i
  obtain ⟨p, j, rfl⟩ : ∃ (p : Fin 10000) (j : Fin 8), i = ix2 p j := ⟨i 0, i 1, eq_ix2 i⟩
  refine (val_main_v8_apply x0 x1 x2 x3 x4 (ix2 p j)).trans ?_
  rw [prod_at, v7_eq]
  refine Finset.sum_congr rfl fun k _ => ?_
  rw [show lidx_main_v8 (ix2 p j) k = ix2 p k by idx2, show ridx_main_v8 (ix2 p j) k = ix2 k j by idx2]

/-- b2 as one row, repeated down the rows: at (p, j) it is b2 at j. -/
theorem v10_at (x5 : (⟨S8, .f32⟩ : BufTy).Contents (Elt Ideal)) (p : Fin 10000) (j : Fin 8) :
    val_main_v10 (F := Ideal) x5 (ix2 p j) = x5 (ix1 j) := by
  rw [val_main_v10_apply, val_main_v9_apply]
  exact congrArg x5 (by idx1)

/-- The logits: adj · (h · W2) + b2. -/
theorem v11_eq (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x8, .f32⟩ : BufTy).Contents (Elt Ideal)) (x5 : (⟨S8, .f32⟩ : BufTy).Contents (Elt Ideal)) :
    val_main_v11 (F := Ideal) x0 x1 x2 x3 x4 x5 = logits x0 x1 x2 x3 x4 x5 := by
  funext i
  obtain ⟨p, j, rfl⟩ : ∃ (p : Fin 10000) (j : Fin 8), i = ix2 p j := ⟨i 0, i 1, eq_ix2 i⟩
  unfold logits
  rw [val_main_v11_apply, Ideal.addf_def, v8_eq, v10_at, addRow_at]

/-! ## The row maximum -/

/-- The index of [10000, 8] over p of [10000] with k on the reduced axis is (p, k). -/
theorem lift_row (hr : S10000x8.Reduces [1] S10000) (p : Fin 10000) (k : Fin 8) :
    hr.lift (ix1 p) k = ix2 p k := by
  funext a
  apply Fin.ext
  match a with
  | ⟨0, _⟩ => rfl
  | ⟨1, _⟩ => rfl

/-- The maximum over axis 1 from minus infinity, joined once more with minus infinity, is the row maximum. -/
theorem rowMax_read (z : FVec Ideal S10000x8 .f32) (p : Fin 10000) :
    FloatOps.maximumf (val_main_call0_v1 (F := Ideal) (ix1 p))
        (Host.reduce FloatOps.maximumf z (val_main_call0_cst (F := Ideal)) reducesTo_S10000x8_S10000_d1 h_S_ (ix1 p))
      = rowMax z p := by
  have hr : S10000x8.Reduces [1] S10000 := by decide
  rw [Host.reduce_eq_fold_single FloatOps.maximumf z _ reducesTo_S10000x8_S10000_d1 hr h_S_ (ix1 p),
    val_main_call0_v1_apply, val_main_call0_cst_0_apply, val_main_call0_cst_apply]
  show max negInfW (Finset.univ.fold max negInfW (z ∘ hr.lift (ix1 p))) = _
  rw [max_eq_right ((Finset.le_fold_max _).2 (Or.inl le_rfl))]
  exact congrArg (fun f : Fin 8 → EReal => (Finset.univ : Finset (Fin 8)).fold max negInfW f)
    (funext fun k => congrArg z (lift_row hr p k))

/-- The program's row maximum at p. -/
theorem M_at (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x8, .f32⟩ : BufTy).Contents (Elt Ideal)) (x5 : (⟨S8, .f32⟩ : BufTy).Contents (Elt Ideal)) (p : Fin 10000) :
    val_main_call0_v2 (F := Ideal) x0 x1 x2 x3 x4 x5 (ix1 p)
      = rowMax (val_main_v11 (F := Ideal) x0 x1 x2 x3 x4 x5) p := by
  rw [val_main_call0_v2_apply]
  unfold val_main_call0_v0
  exact rowMax_read _ p

/-! ## The log-softmax over the logits, kept as one name -/

/-- The maximum broadcast back through a unit column: at (p, j) it is the row maximum at p. -/
theorem c4_at (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x8, .f32⟩ : BufTy).Contents (Elt Ideal)) (x5 : (⟨S8, .f32⟩ : BufTy).Contents (Elt Ideal)) (p : Fin 10000) (j : Fin 8) :
    val_main_call0_v4 (F := Ideal) x0 x1 x2 x3 x4 x5 (ix2 p j) = rowMax (val_main_v11 (F := Ideal) x0 x1 x2 x3 x4 x5) p := by
  rw [val_main_call0_v4_apply, val_main_call0_v3_apply]
  exact (congrArg (val_main_call0_v2 (F := Ideal) x0 x1 x2 x3 x4 x5) (by idx1)).trans (M_at x0 x1 x2 x3 x4 x5 p)

/-- z - M at (p, j). -/
theorem c5_at (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x8, .f32⟩ : BufTy).Contents (Elt Ideal)) (x5 : (⟨S8, .f32⟩ : BufTy).Contents (Elt Ideal)) (p : Fin 10000) (j : Fin 8) :
    val_main_call0_v5 (F := Ideal) x0 x1 x2 x3 x4 x5 (ix2 p j)
      = (val_main_v11 (F := Ideal) x0 x1 x2 x3 x4 x5) (ix2 p j) - rowMax (val_main_v11 (F := Ideal) x0 x1 x2 x3 x4 x5) p := by
  rw [val_main_call0_v5_apply, Ideal.subf_def, c4_at]

/-- exp (z - M) at (p, j). -/
theorem c6_at (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x8, .f32⟩ : BufTy).Contents (Elt Ideal)) (x5 : (⟨S8, .f32⟩ : BufTy).Contents (Elt Ideal)) (p : Fin 10000) (j : Fin 8) :
    val_main_call0_v6 (F := Ideal) x0 x1 x2 x3 x4 x5 (ix2 p j)
      = Ideal.exp ((val_main_v11 (F := Ideal) x0 x1 x2 x3 x4 x5) (ix2 p j) - rowMax (val_main_v11 (F := Ideal) x0 x1 x2 x3 x4 x5) p) := by
  rw [val_main_call0_v6_apply, Ideal.hostUnary_exp_def, c5_at]

/-- The row sum of the exponentials: the sum starts from the word of zero, which denotes 0. -/
theorem c7_at (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x8, .f32⟩ : BufTy).Contents (Elt Ideal)) (x5 : (⟨S8, .f32⟩ : BufTy).Contents (Elt Ideal)) (p : Fin 10000) :
    val_main_call0_v7 (F := Ideal) x0 x1 x2 x3 x4 x5 (ix1 p)
      = ∑ l : Fin 8, Ideal.exp ((val_main_v11 (F := Ideal) x0 x1 x2 x3 x4 x5) (ix2 p l) - rowMax (val_main_v11 (F := Ideal) x0 x1 x2 x3 x4 x5) p) := by
  rw [val_main_call0_v7_apply, val_main_call0_cst_1_apply, Ideal.ofBits_def, Ideal.ofBits_zero_f32, zero_add]
  refine Finset.sum_congr rfl fun k _ => ?_
  rw [show idx_main_call0_v7 (ix1 p) k = ix2 p k by idx2, c6_at]

/-- The logarithm of the row sum, broadcast back through a unit column: at (p, j) it is the row's log-sum-exp. -/
theorem c10_at (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x8, .f32⟩ : BufTy).Contents (Elt Ideal)) (x5 : (⟨S8, .f32⟩ : BufTy).Contents (Elt Ideal)) (p : Fin 10000) (j : Fin 8) :
    val_main_call0_v10 (F := Ideal) x0 x1 x2 x3 x4 x5 (ix2 p j) = rowLse (val_main_v11 (F := Ideal) x0 x1 x2 x3 x4 x5) p := by
  rw [val_main_call0_v10_apply, val_main_call0_v9_apply, Ideal.hostUnary_log_def, val_main_call0_v8_apply]
  refine congrArg Ideal.log ?_
  exact (congrArg (val_main_call0_v7 (F := Ideal) x0 x1 x2 x3 x4 x5) (by idx1)).trans (c7_at x0 x1 x2 x3 x4 x5 p)

/-- The program's result is the log-softmax, maximum first, of the array it holds before the softmax. -/
theorem softmax_eq (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x8, .f32⟩ : BufTy).Contents (Elt Ideal)) (x5 : (⟨S8, .f32⟩ : BufTy).Contents (Elt Ideal)) :
    val_main_v12 (F := Ideal) x0 x1 x2 x3 x4 x5 = logSoftmaxShifted (val_main_v11 (F := Ideal) x0 x1 x2 x3 x4 x5) := by
  funext i
  obtain ⟨p, j, rfl⟩ : ∃ (p : Fin 10000) (j : Fin 8), i = ix2 p j := ⟨i 0, i 1, eq_ix2 i⟩
  rw [val_main_v12_apply, Ideal.subf_def, c5_at, c10_at]
  rfl

/-! ## The reference's result is the specification -/

theorem ref_eq (x0 : (⟨S10000x128, .f32⟩ : BufTy).Contents (Elt Ideal)) (x1 : (⟨S10000x10000, .f32⟩ : BufTy).Contents (Elt Ideal)) (x2 : (⟨S128x16, .f32⟩ : BufTy).Contents (Elt Ideal)) (x3 : (⟨S16, .f32⟩ : BufTy).Contents (Elt Ideal)) (x4 : (⟨S16x8, .f32⟩ : BufTy).Contents (Elt Ideal)) (x5 : (⟨S8, .f32⟩ : BufTy).Contents (Elt Ideal)) :
    Cert.ReferenceIdeal.Read.val_main_v12 (F := Ideal) x0 x1 x2 x3 x4 x5
      = Cert.GcnSpec.logSoftmaxShifted (Cert.GcnSpec.logits x0 x1 x2 x3 x4 x5) := by
  rw [softmax_eq, v11_eq]

end Cert.GcnRef

end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«164230_g44289702756771_cont_8to1_c_1056_4_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.Finite.lean ====
/-
  Real-valued inputs, and the two arrangements of the log-softmax.

  The precondition tests every input array entry by entry: |x| < +∞, and the conjunction of all the answers is 1.
  On the extended reals |x| = max x (-x) is below ⊤ exactly when x is a real number, so each of the six arrays is
  real-valued (allReal_of_pre).

  Real-valuedness is carried through the graph convolution: a matrix product is a finite sum of products of reals
  (prod_real), a bias added to every row is a sum of two reals (addRow_real), the rectifier is the larger of a real
  and zero (relu_real). Hence the logits are real-valued (logits_real).

  On a real-valued matrix with at least one column the two arrangements of the row-wise log-softmax agree
  (logSoftmax_arrangements). Fix a row. Its maximum M, folded from ⊥ over a nonempty family of reals, is a real
  (fold_max_real): the first member absorbs ⊥ and every further step is the larger of two reals. Each
  exp (z - M) is a positive real (exp_pos), a nonempty sum of positive reals is a positive real (sum_pos), and the
  logarithm of a positive real is a real (log_real), so L is a real. With a, m, l real numbers,
  a - (l + m) = (a - m) - l holds on the reals.
-/
import Idealize.ShloMosaic.PureOps.Ideal.Laws
import proofs.«164230_g44289702756771_cont_8to1_c_1056_4_alg».proof.Pre_finite_inputs
import proofs.«164230_g44289702756771_cont_8to1_c_1056_4_alg».proof.Proof.Spec
import proofs.«164230_g44289702756771_cont_8to1_c_1056_4_alg».proof.Proof.LibFiniteTest

noncomputable section

open scoped BigOperators

namespace Cert.GcnFinite

open Idealize.ShloMosaic Idealize.ShloMosaic.ValueIdx Cert.GcnSpec Cert.Lib.RealValued Cert.Lib.FiniteTest

/-! ## The precondition read back -/

/-- The shape of rank 0 has one index. -/
local instance : Subsingleton Cert.Pre_finite_inputs.S_.Idx := ⟨fun _ _ => funext fun d => d.elim0⟩

/-- The finiteness test answered 1: each of the six input arrays is real-valued. -/
theorem allReal_of_pre [Cert.Pre_finite_inputs.Facts]
    (a0 : FVec Ideal Cert.Pre_finite_inputs.S10000x128 .f32) (a1 : FVec Ideal Cert.Pre_finite_inputs.S10000x10000 .f32)
    (a2 : FVec Ideal Cert.Pre_finite_inputs.S128x16 .f32) (a3 : FVec Ideal Cert.Pre_finite_inputs.S16 .f32)
    (a4 : FVec Ideal Cert.Pre_finite_inputs.S16x8 .f32) (a5 : FVec Ideal Cert.Pre_finite_inputs.S8 .f32)
    (h : Cert.Pre_finite_inputs.fn (F := Ideal) a0 a1 a2 a3 a4 a5 = fun _ => 1#1) :
    AllReal a0 ∧ AllReal a1 ∧ AllReal a2 ∧ AllReal a3 ∧ AllReal a4 ∧ AllReal a5 := by
  have e := congrFun h ValueIdx.ix0
  dsimp only [Cert.Pre_finite_inputs.fn, Cert.Pre_finite_inputs.fn_part1] at e
  -- the result is a conjunction of six tests, nested to the left
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨allReal_of_all a0 _ _ _ _ _ _ e0, allReal_of_all a1 _ _ _ _ _ _ e1, allReal_of_all a2 _ _ _ _ _ _ e2,
    allReal_of_all a3 _ _ _ _ _ _ e3, allReal_of_all a4 _ _ _ _ _ _ e4, allReal_of_all a5 _ _ _ _ _ _ e5⟩

/-! ## Real-valuedness through the graph convolution -/

variable {M K N : ℕ}

/-- A matrix product of real-valued matrices is real-valued: every entry is a finite sum of products of reals. -/
theorem prod_real {a : Mat M K} {b : Mat K N} (ha : AllReal a) (hb : AllReal b) : AllReal (prod a b) :=
  fun _ => IsReal.sum _ _ fun _ _ => (ha _).mul (hb _)

/-- A real-valued bias added to every row of a real-valued matrix. -/
theorem addRow_real {a : Mat M N} {b : Vct N} (ha : AllReal a) (hb : AllReal b) : AllReal (addRow a b) :=
  fun i => (ha i).add (hb _)

/-- The word of zero denotes the real number 0. -/
theorem zeroW_real : IsReal zeroW := by
  rw [show zeroW = 0 from Ideal.ofBits_zero_f32]; exact IsReal.zero

/-- The rectifier of a real-valued matrix: the larger of a real and zero. -/
theorem relu_real {a : Mat M N} (ha : AllReal a) : AllReal (relu a) :=
  fun i => (ha i).max zeroW_real

/-- The logits of the two-layer graph convolution of real-valued arguments are real-valued. -/
theorem logits_real {x : Mat 10000 128} {adj : Mat 10000 10000} {w1 : Mat 128 16} {b1 : Vct 16} {w2 : Mat 16 8}
    {b2 : Vct 8} (hx : AllReal x) (hadj : AllReal adj) (hw1 : AllReal w1) (hb1 : AllReal b1) (hw2 : AllReal w2)
    (hb2 : AllReal b2) : AllReal (logits x adj w1 b1 w2 b2) :=
  addRow_real (prod_real hadj (prod_real (relu_real (addRow_real (prod_real hadj (prod_real hx hw1)) hb1)) hw2)) hb2

/-! ## Exponential, logarithm, maximum and sum on the reals -/

/-- The word of minus infinity denotes ⊥. -/
theorem negInfW_eq : negInfW = (⊥ : EReal) := by
  simp [Ideal.ofBits, Ideal.ieee]

/-- The exponential of a real is a positive real. -/
theorem exp_pos {x : EReal} (hx : IsReal x) : IsPos (Ideal.exp x) := by
  obtain ⟨r, rfl⟩ := hx
  exact ⟨Real.exp r, Real.exp_pos r, rfl⟩

/-- The logarithm of a positive real is a real. -/
theorem log_real {x : EReal} (hx : IsPos x) : IsReal (Ideal.log x) := by
  obtain ⟨r, hr, rfl⟩ := hx
  rw [Ideal.log_coe, if_neg (not_le.2 hr)]
  exact ⟨Real.log r, rfl⟩

/-- The maximum, folded from ⊥, of a nonempty finite family of reals is a real. -/
theorem fold_max_real {ι : Type*} (s : Finset ι) (f : ι → EReal) (hf : ∀ i ∈ s, IsReal (f i)) (hs : s.Nonempty) :
    IsReal (s.fold max ⊥ f) := by
  classical
  induction s using Finset.induction_on with
  | empty => exact absurd hs Finset.not_nonempty_empty
  | insert a s ha ih =>
    rw [Finset.fold_insert ha]
    rcases s.eq_empty_or_nonempty with rfl | hne
    · rw [Finset.fold_empty, max_bot_right]
      exact hf a (Finset.mem_insert_self _ _)
    · exact (hf a (Finset.mem_insert_self _ _)).max (ih (fun i hi => hf i (Finset.mem_insert_of_mem hi)) hne)

/-- A nonempty finite sum of positive reals is a positive real. -/
theorem sum_pos {ι : Type*} (s : Finset ι) (f : ι → EReal) (hf : ∀ i ∈ s, IsPos (f i)) (hs : s.Nonempty) :
    IsPos (∑ i ∈ s, f i) := by
  classical
  obtain ⟨a, ha⟩ := hs
  rw [← Finset.add_sum_erase s f ha, add_comm]
  exact (IsNonneg.sum _ _ fun i hi => (hf i (Finset.mem_of_mem_erase hi)).isNonneg).add_pos (hf a ha)

/-! ## The two arrangements of the log-softmax -/

/-- The maximum of a row of reals with at least one column is a real. -/
theorem rowMax_real (z : Mat M N) (hz : AllReal z) (p : Fin M) (hN : 0 < N) : IsReal (rowMax z p) := by
  unfold rowMax
  rw [negInfW_eq]
  exact fold_max_real _ _ (fun _ _ => hz _) ⟨⟨0, hN⟩, Finset.mem_univ _⟩

/-- The logarithm of the sum of the shifted exponentials of a row of reals with at least one column is a real. -/
theorem rowLse_real (z : Mat M N) (hz : AllReal z) (p : Fin M) (hN : 0 < N) : IsReal (rowLse z p) := by
  unfold rowLse
  exact log_real (sum_pos _ _ (fun _ _ => exp_pos ((hz _).sub (rowMax_real z hz p hN))) ⟨⟨0, hN⟩, Finset.mem_univ _⟩)

/-- On a real-valued matrix, subtracting the row maximum and the log-sum-exp one after the other, or their sum at
    once, gives the same log-softmax. -/
theorem logSoftmax_arrangements {M N : ℕ} (z : Mat M N) (hz : AllReal z) : logSoftmaxJoined z = logSoftmaxShifted z := by
  funext i
  have hN : 0 < N := (i 1).pos
  obtain ⟨a, ha⟩ := hz i
  obtain ⟨m, hm⟩ := rowMax_real z hz (i 0) hN
  obtain ⟨l, hl⟩ := rowLse_real z hz (i 0) hN
  show z i - (rowLse z (i 0) + rowMax z (i 0)) = (z i - rowMax z (i 0)) - rowLse z (i 0)
  rw [ha, hm, hl, ← EReal.coe_add, ← EReal.coe_sub, ← EReal.coe_sub, ← EReal.coe_sub]
  congr 1
  ring

end Cert.GcnFinite

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«164230_g44289702756771_cont_8to1_c_1056_4_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.KBody.lean ====
/-
  What each of the three kernel bodies stores, as a function of the blocks it loads, on the extended reals.

  * the projection body stores the product of its two whole operands: `x · W1`;
  * the first pass stores, for its block of 200 adjacency rows `a`, `relu (a · s + b) · W2` — the bias `b` a one-row
    matrix added to every row (`rowAffine`);
  * the second pass stores the row-wise log-softmax of `a · s + b`, the row maximum and the logarithm of the row sum
    subtracted together.
  Each matrix product into the zero accumulator is the sum over the contracted coordinate; the lane maximum is the
  fold of `max` from minus infinity over the row and the lane sum the sum over the row; a reduced vector [200] cast to
  a column [200, 1] and repeated along the rows gives every entry of row r the row's reduced value.
-/
import proofs.«164230_g44289702756771_cont_8to1_c_1056_4_alg».proof.Proof.Gen.KernelIdeal.Skeleton
import proofs.«164230_g44289702756771_cont_8to1_c_1056_4_alg».proof.Proof.Spec
import proofs.«164230_g44289702756771_cont_8to1_c_1056_4_alg».proof.Proof.LibPlainDot
import proofs.«164230_g44289702756771_cont_8to1_c_1056_4_alg».proof.Proof.LibKeepdims
import Idealize.ShloMosaic.Lib.ValueLayout
import Idealize.ShloMosaic.PureOps.Ideal.Laws

noncomputable section

open scoped BigOperators

namespace Cert.GcnKernel

open Idealize.ShloMosaic Idealize.ShloMosaic.ValueIdx Cert.KernelIdeal Cert.KernelIdeal.Gen Cert.GcnSpec
open Cert.LibHostRead Cert.LibPlainDot

variable {R K N : ℕ}

/-- `a · s` with the one-row matrix `b` added to every row. -/
def rowAffine (a : Mat R K) (s : Mat K N) (b : Mat 1 N) : Mat R N := fun i => prod a s i + b (ix2 (0 : Fin 1) (i 1))

/-! ## The printed products are plain: rows times columns -/

theorem plain_proj : PlainDot dot_S10000x128_S128x16_S10000x16_1_0_0_1_n_n := plainDot_plain 10000 128 16
theorem plain_agg16 : PlainDot dot_S200x10000_S10000x16_S200x16_1_0_0_1_n_n := plainDot_plain 200 10000 16
theorem plain_w2 : PlainDot dot_S200x16_S16x8_S200x8_1_0_0_1_n_n := plainDot_plain 200 16 8
theorem plain_agg8 : PlainDot dot_S200x10000_S10000x8_S200x8_1_0_0_1_n_n := plainDot_plain 200 10000 8

/-! ## The projection body -/

/-- The projection body stores `x · W1`. -/
theorem proj_payload (v0 : Vec Ideal S10000x128 .f32) (v1 : Vec Ideal S128x16 .f32) :
    k0_pay1 (F := Ideal) v0 v1 = prod v0 v1 := by
  funext i
  obtain ⟨p, j, rfl⟩ : ∃ (p : Fin 10000) (j : Fin 16), i = ix2 p j := ⟨i 0, i 1, eq_ix2 i⟩
  exact vmatmul_apply _ plain_proj v0 v1 p j

/-! ## The first pass -/

/-- The first pass stores `relu (a · s + b) · W2` for its block `a` of adjacency rows. -/
theorem pass1_payload (v0 : Vec Ideal S200x10000 .f32) (v1 : Vec Ideal S10000x16 .f32) (v4 : Vec Ideal S1x16 .f32)
    (v10 : Vec Ideal S16x8 .f32) :
    k1_pay1 (F := Ideal) v0 v1 v4 v10 = prod (relu (rowAffine v0 v1 v4)) v10 := by
  funext i
  obtain ⟨r, j, rfl⟩ : ∃ (r : Fin 200) (j : Fin 8), i = ix2 r j := ⟨i 0, i 1, eq_ix2 i⟩
  unfold k1_pay1
  simp only [shapeCast_self]
  rw [vmatmul_apply _ plain_w2]
  refine Finset.sum_congr rfl fun k _ => ?_
  refine congrArg (· * v10 (ix2 k j)) ?_
  show max (matmul (F := Ideal) dot_S200x10000_S10000x16_S200x16_1_0_0_1_n_n none v0 v1 (constant (F := Ideal) S200x16 .f32 0x00000000#32) (ix2 r k)
      + broadcastTo S200x16 v4 broadcasts_S1x16_S200x16 (ix2 r k)) zeroW = max (prod v0 v1 (ix2 r k) + v4 (ix2 (0 : Fin 1) k)) zeroW
  rw [vmatmul_apply _ plain_agg16, broadcastTo_1b_ab_apply]
  rfl

/-! ## The second pass -/

/-- The index of [200, 8] over row r of [200] with `l` on the reduced lane axis is (r, l). -/
theorem lift_row (hr : S200x8.Reduces [1] S200) (r : Fin 200) (l : Fin 8) : hr.lift (ix1 r) l = ix2 r l := by
  funext a
  apply Fin.ext
  match a with
  | ⟨0, _⟩ => rfl
  | ⟨1, _⟩ => rfl

section SecondPass
variable (X : FVec Ideal S200x8 .f32) (hr : S200x8.Reduces [1] S200) (hc : S200.ShapeCasts S200x1)
  (hb : S200x1.Broadcasts S200x8) (hφ : FKind.Formats .f32)
  (hmax : (0xFF800000#32 : BitVec 32) = FKind.maximumf.neutral .f32 hφ)
  (hadd : (0x00000000#32 : BitVec 32) = FKind.add.neutral .f32 hφ)

/-- The vector program of the second pass on a block of logits: the lane maximum and the lane sum of the shifted
    exponentials, each kept as a unit column; the logarithm of the sum plus the maximum, repeated along the rows, subtracted. -/
def vecLogSoftmax : FVec Ideal S200x8 .f32 :=
  subf X (broadcastTo S200x8 (addf
    (log (shapeCast S200x1 (multiReduction (F := Ideal) .add [1] S200
      (exp (subf X (broadcastTo S200x8 (shapeCast S200x1
        (multiReduction (F := Ideal) .maximumf [1] S200 X 0xFF800000#32 hr hφ hmax) hc) hb)))
      0x00000000#32 hr hφ hadd) hc))
    (shapeCast S200x1 (multiReduction (F := Ideal) .maximumf [1] S200 X 0xFF800000#32 hr hφ hmax) hc)) hb)

/-- Read at (r, j), the vector program is the joined log-softmax of row r. -/
theorem vecLogSoftmax_apply (r : Fin 200) (j : Fin 8) :
    vecLogSoftmax X hr hc hb hφ hmax hadd (ix2 r j) = logSoftmaxJoined X (ix2 r j) := by
  -- the lane maximum of row r: the fold of `max` from minus infinity over the row
  have hM : multiReduction (F := Ideal) .maximumf [1] S200 X 0xFF800000#32 hr hφ hmax (ix1 r) = rowMax X r := by
    rw [Ideal.multiReduction_maximumf_single]
    exact congrArg (fun f : Fin 8 → EReal => (Finset.univ : Finset (Fin 8)).fold max negInfW f)
      (funext fun k => congrArg X (lift_row hr r k))
  -- the shifted exponentials of row r
  have hE : ∀ k : Fin 8,
      exp (subf X (broadcastTo S200x8 (shapeCast S200x1
        (multiReduction (F := Ideal) .maximumf [1] S200 X 0xFF800000#32 hr hφ hmax) hc) hb)) (ix2 r k)
      = Ideal.exp (X (ix2 r k) - rowMax X r) := by
    intro k
    show Ideal.exp (X (ix2 r k) - broadcastTo S200x8 (shapeCast S200x1
        (multiReduction (F := Ideal) .maximumf [1] S200 X 0xFF800000#32 hr hφ hmax) hc) hb (ix2 r k)) = _
    rw [Cert.LibKeepdims.keepdims_apply, hM]
  unfold vecLogSoftmax
  show X (ix2 r j) - broadcastTo S200x8 (addf _ _) hb (ix2 r j) = X (ix2 r j) - (rowLse X r + rowMax X r)
  rw [Cert.LibKeepdims.broadcastTo_a1_ab_apply]
  show X (ix2 r j) - (Ideal.log (shapeCast S200x1 _ hc (ix2 r (0 : Fin 1))) + shapeCast S200x1 _ hc (ix2 r (0 : Fin 1))) = _
  rw [Cert.LibKeepdims.shapeCast_a_a1_apply, Cert.LibKeepdims.shapeCast_a_a1_apply, hM, Ideal.multiReduction_add_single]
  unfold rowLse
  refine congrArg (fun s => X (ix2 r j) - (Ideal.log s + rowMax X r)) ?_
  exact Finset.sum_congr rfl fun k _ => by rw [lift_row hr r k, hE k]

end SecondPass

/-- The logits of a block: the product plus the bias row, entry by entry. -/
theorem blockLogits_eq (v0 : Vec Ideal S200x10000 .f32) (v1 : Vec Ideal S10000x8 .f32) (v4 : Vec Ideal S1x8 .f32) :
    addf (matmul (F := Ideal) (φ₁ := .f32) (φ₂ := .f32) dot_S200x10000_S10000x8_S200x8_1_0_0_1_n_n none v0 v1
        (constant (F := Ideal) S200x8 .f32 0x00000000#32))
      (broadcastTo S200x8 v4 broadcasts_S1x8_S200x8) = rowAffine v0 v1 v4 := by
  funext i
  obtain ⟨r, l, rfl⟩ : ∃ (r : Fin 200) (l : Fin 8), i = ix2 r l := ⟨i 0, i 1, eq_ix2 i⟩
  show matmul (F := Ideal) (φ₁ := .f32) (φ₂ := .f32) dot_S200x10000_S10000x8_S200x8_1_0_0_1_n_n none v0 v1
      (constant (F := Ideal) S200x8 .f32 0x00000000#32) (ix2 r l)
    + broadcastTo S200x8 v4 broadcasts_S1x8_S200x8 (ix2 r l) = prod v0 v1 (ix2 r l) + v4 (ix2 (0 : Fin 1) l)
  rw [vmatmul_apply _ plain_agg8, broadcastTo_1b_ab_apply]
  rfl

/-- The second pass stores the row-wise log-softmax of `a · s + b`, the logarithm of the row sum and the row maximum
    subtracted together. -/
theorem pass2_payload (v0 : Vec Ideal S200x10000 .f32) (v1 : Vec Ideal S10000x8 .f32) (v4 : Vec Ideal S1x8 .f32) :
    k2_pay1 (F := Ideal) v0 v1 v4 = logSoftmaxJoined (rowAffine v0 v1 v4) := by
  funext i
  obtain ⟨r, j, rfl⟩ : ∃ (r : Fin 200) (j : Fin 8), i = ix2 r j := ⟨i 0, i 1, eq_ix2 i⟩
  unfold k2_pay1
  simp only [shapeCast_self]
  rw [blockLogits_eq]
  exact vecLogSoftmax_apply (rowAffine v0 v1 v4) _ _ _ _ _ _ r j

end Cert.GcnKernel

end
-- ==== Proof.KBlocks.lean ====
/-
  Each region's output array after its pipeline, as one function of the arrays the region finds at entry.

  The projection runs at one grid point on whole arrays and leaves `x · W1`. The two passes run at 50 grid points;
  at point t the adjacency window holds rows 200 t … 200 t + 199, the other inputs are whole arrays, and the output
  window is rows 200 t … 200 t + 199 of the result. A matrix product, a bias row, the rectifier and the row-wise
  log-softmax each read only ONE row of the left operand to produce a row of the result (`prod_row`, `rowAffine_row`,
  `relu_row`, `logSoftmaxJoined_row`), so what point t writes back is rows 200 t … of the whole-array function; the 50
  blocks cover the 10000 rows (row i lies in block i / 200).
-/
import proofs.«164230_g44289702756771_cont_8to1_c_1056_4_alg».proof.Proof.Gen.KernelIdeal.Frame
import proofs.«164230_g44289702756771_cont_8to1_c_1056_4_alg».proof.Proof.KBody
import Idealize.ShloMosaic.Lib.Pipeline.Value
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.GcnKernel

open Cert.KernelIdeal Cert.KernelIdeal.Gen Cert.GcnSpec

/-! ## One row in, one row out -/

section Rows
variable {R R' K N : ℕ}

/-- Row r of `a · b` reads only row r of `a`. -/
theorem prod_row {a : Mat R K} {a' : Mat R' K} (b : Mat K N) {r : Fin R} {p : Fin R'}
    (h : ∀ q, a (ix2 r q) = a' (ix2 p q)) (j : Fin N) : prod a b (ix2 r j) = prod a' b (ix2 p j) := by
  show ∑ k : Fin K, a (ix2 r k) * b (ix2 k j) = ∑ k : Fin K, a' (ix2 p k) * b (ix2 k j)
  exact Finset.sum_congr rfl fun k _ => by rw [h k]

/-- Row r of `a · s + b` reads only row r of `a`. -/
theorem rowAffine_row {a : Mat R K} {a' : Mat R' K} (s : Mat K N) (b : Mat 1 N) {r : Fin R} {p : Fin R'}
    (h : ∀ q, a (ix2 r q) = a' (ix2 p q)) (k : Fin N) : rowAffine a s b (ix2 r k) = rowAffine a' s b (ix2 p k) := by
  show prod a s (ix2 r k) + b (ix2 (0 : Fin 1) k) = prod a' s (ix2 p k) + b (ix2 (0 : Fin 1) k)
  rw [prod_row s h k]

/-- The rectifier is entry by entry. -/
theorem relu_row {a : Mat R N} {a' : Mat R' N} {r : Fin R} {p : Fin R'}
    (h : ∀ q, a (ix2 r q) = a' (ix2 p q)) (k : Fin N) : relu a (ix2 r k) = relu a' (ix2 p k) := by
  show max (a (ix2 r k)) zeroW = max (a' (ix2 p k)) zeroW
  rw [h k]

/-- Row r of the log-softmax reads only row r. -/
theorem logSoftmaxJoined_row {z : Mat R N} {z' : Mat R' N} {r : Fin R} {p : Fin R'}
    (h : ∀ l, z (ix2 r l) = z' (ix2 p l)) (j : Fin N) : logSoftmaxJoined z (ix2 r j) = logSoftmaxJoined z' (ix2 p j) := by
  have hM : rowMax z r = rowMax z' p := by
    unfold rowMax
    exact congrArg (fun f : Fin N → EReal => (Finset.univ : Finset (Fin N)).fold max negInfW f) (funext h)
  have hL : rowLse z r = rowLse z' p := by
    unfold rowLse
    rw [hM]
    exact congrArg Ideal.log (Finset.sum_congr rfl fun l _ => by rw [h l])
  show z (ix2 r j) - (rowLse z r + rowMax z r) = z' (ix2 p j) - (rowLse z' p + rowMax z' p)
  rw [h j, hM, hL]

end Rows

variable (V : (c : Dev nD) → (b : Ref sig .tc) → Buf (Elt Ideal) ((c : Thread nD τ).loc b))

theorem hz : (![0, 0] : Fin 2 → Nat) = fun _ => 0 := funext fun a => by fin_cases a <;> rfl

/-! ## The projection: one point, whole arrays -/

/-- The printed index maps of the projection's windows: every block index is 0. -/
theorem idx0 : ∀ t : Fin cfg0.N, (win0_0.index t 0 = 0 ∧ win0_0.index t 1 = 0) ∧ (win0_1.index t 0 = 0 ∧ win0_1.index t 1 = 0)
    ∧ (win0_2.index t 0 = 0 ∧ win0_2.index t 1 = 0) :=
  (by decide +kernel : ∀ t : Fin grid0.N, _)

/-- What the projection leaves in its output array: `x · W1` of the arrays it finds. -/
def support1 (c : Dev nD) : Mat 10000 16 := prod (V c main_arg0 : Mat 10000 128) (V c main_arg2 : Mat 128 16)

theorem whole0_0 (c : Dev nD) (t : Fin cfg0.N) : (iblk0 V c 0 t : Vec Ideal S10000x128 .f32) = (V c main_arg0 : Mat 10000 128) := by
  funext y
  unfold iblk0
  rw [View.read_apply]
  show V c main_arg0 _ = V c main_arg0 y
  congr 1
  funext a
  apply Fin.ext
  match a with
  | ⟨0, _⟩ => show win0_0.index t 0 * 10000 + 1 * (y 0).val = (y 0).val; rw [(idx0 t).1.1]; omega
  | ⟨1, _⟩ => show win0_0.index t 1 * 128 + 1 * (y 1).val = (y 1).val; rw [(idx0 t).1.2]; omega

theorem whole0_1 (c : Dev nD) (t : Fin cfg0.N) : (iblk0 V c 1 t : Vec Ideal S128x16 .f32) = (V c main_arg2 : Mat 128 16) := by
  funext y
  unfold iblk0
  rw [View.read_apply]
  show V c main_arg2 _ = V c main_arg2 y
  congr 1
  funext a
  apply Fin.ext
  match a with
  | ⟨0, _⟩ => show win0_1.index t 0 * 128 + 1 * (y 0).val = (y 0).val; rw [(idx0 t).2.1.1]; omega
  | ⟨1, _⟩ => show win0_1.index t 1 * 16 + 1 * (y 1).val = (y 1).val; rw [(idx0 t).2.1.2]; omega

/-- What the one point writes back is the whole of `x · W1`. -/
theorem flushed0 (c : Dev nD) (t : Fin cfg0.N) :
    (dat0 V c).flushed 2 t = ((cfg0.win 2).blk t).view.read (Elt Ideal) (support1 V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  rw [proj_payload, whole0_0, whole0_1]
  funext y
  rw [View.read_apply]
  show support1 V c y = support1 V c _
  congr 1
  funext a
  apply Fin.ext
  match a with
  | ⟨0, _⟩ => show (y 0).val = win0_2.index t 0 * 10000 + 1 * (y 0).val; rw [(idx0 t).2.2.1]; omega
  | ⟨1, _⟩ => show (y 1).val = win0_2.index t 1 * 16 + 1 * (y 1).val; rw [(idx0 t).2.2.2]; omega

/-- An index of the projection's output array lies in point t's block iff each coordinate is in the block's range. -/
theorem mem_blk0 (t : Fin cfg0.N) (i : S10000x16.Idx) :
    i ∈ ((cfg0.win 2).blk t).view.set ↔ ∀ a : Fin 2, win0_2.index t a * S10000x16.size a ≤ (i a).val
      ∧ (i a).val < win0_2.index t a * S10000x16.size a + S10000x16.size a := by
  show i ∈ ((View.whole main_v2).slice (win0_2.rect t)).set ↔ _
  rw [View.set_slice_whole, Rect.mem_set_unit]
  exact Iff.rfl

/-- The one block is the whole array. -/
theorem cover0 (i : S10000x16.Idx) : ∃ t : Fin cfg0.N, (cfg0.win 2).flush t = true ∧ i ∈ ((cfg0.win 2).blk t).view.set := by
  have h0 : (i 0).val < 10000 := (i 0).isLt
  have h1 : (i 1).val < 16 := (i 1).isLt
  refine ⟨⟨0, by rw [show cfg0.N = 1 from N_0]; decide⟩, flush0_2 _, ?_⟩
  rw [mem_blk0]
  intro a
  match a with
  | ⟨0, _⟩ =>
    show win0_2.index _ 0 * 10000 ≤ (i 0).val ∧ (i 0).val < win0_2.index _ 0 * 10000 + 10000
    rw [(idx0 _).2.2.1]; omega
  | ⟨1, _⟩ =>
    show win0_2.index _ 1 * 16 ≤ (i 1).val ∧ (i 1).val < win0_2.index _ 1 * 16 + 16
    rw [(idx0 _).2.2.2]; omega

/-- The projection's output array ends holding `x · W1`. -/
theorem final0 (c : Dev nD) : (dat0 V c).arrAt 2 cfg0.N = support1 V c :=
  (dat0 V c).arrAt_eq_of_cover 2 (support1 V c) (fun t _ => flushed0 V c t) cover0

/-! ## The first pass: 50 points, 200 adjacency rows each -/

/-- The printed index maps of the first pass's windows: the adjacency and the output move with the point along the
    rows, every other block index is 0. -/
theorem idx1 : ∀ t : Fin cfg1.N, (win1_0.index t 0 = t.val ∧ win1_0.index t 1 = 0)
    ∧ (win1_1.index t 0 = 0 ∧ win1_1.index t 1 = 0) ∧ (win1_2.index t 0 = 0 ∧ win1_2.index t 1 = 0)
    ∧ (win1_3.index t 0 = 0 ∧ win1_3.index t 1 = 0) ∧ (win1_4.index t 0 = t.val ∧ win1_4.index t 1 = 0) :=
  (by decide +kernel : ∀ t : Fin grid1.N, _)

/-- What the first pass leaves in its output array: `relu (adj · s1 + b1) · W2` of the arrays it finds. -/
def support2 (c : Dev nD) : Mat 10000 8 :=
  prod (relu (rowAffine (V c main_arg1 : Mat 10000 10000) (V c main_v2 : Mat 10000 16) (V c main_v0 : Mat 1 16)))
    (V c main_arg4 : Mat 16 8)

/-- The adjacency window at point t is rows 200 t … of the adjacency. -/
theorem adjBlock1_apply (c : Dev nD) (t : Fin cfg1.N) (r : Fin 200) (q : Fin 10000) (p : Fin 10000)
    (hp : p.val = t.val * 200 + r.val) :
    (iblk1 V c 0 t : Vec Ideal S200x10000 .f32) (ix2 r q) = (V c main_arg1 : Mat 10000 10000) (ix2 p q) := by
  have hi := (idx1 t).1
  unfold iblk1
  rw [View.read_apply]
  show V c main_arg1 _ = V c main_arg1 _
  congr 1
  funext a
  apply Fin.ext
  match a with
  | ⟨0, _⟩ => show win1_0.index t 0 * 200 + 1 * r.val = p.val; rw [hi.1, hp]; omega
  | ⟨1, _⟩ => show win1_0.index t 1 * 10000 + 1 * q.val = q.val; rw [hi.2]; omega

theorem whole1_1 (c : Dev nD) (t : Fin cfg1.N) : (iblk1 V c 1 t : Vec Ideal S10000x16 .f32) = (V c main_v2 : Mat 10000 16) := by
  funext y
  unfold iblk1
  rw [View.read_apply]
  show V c main_v2 _ = V c main_v2 y
  congr 1
  funext a
  apply Fin.ext
  match a with
  | ⟨0, _⟩ => show win1_1.index t 0 * 10000 + 1 * (y 0).val = (y 0).val; rw [(idx1 t).2.1.1]; omega
  | ⟨1, _⟩ => show win1_1.index t 1 * 16 + 1 * (y 1).val = (y 1).val; rw [(idx1 t).2.1.2]; omega

theorem whole1_2 (c : Dev nD) (t : Fin cfg1.N) : (iblk1 V c 2 t : Vec Ideal S16x8 .f32) = (V c main_arg4 : Mat 16 8) := by
  funext y
  unfold iblk1
  rw [View.read_apply]
  show V c main_arg4 _ = V c main_arg4 y
  congr 1
  funext a
  apply Fin.ext
  match a with
  | ⟨0, _⟩ => show win1_2.index t 0 * 16 + 1 * (y 0).val = (y 0).val; rw [(idx1 t).2.2.1.1]; omega
  | ⟨1, _⟩ => show win1_2.index t 1 * 8 + 1 * (y 1).val = (y 1).val; rw [(idx1 t).2.2.1.2]; omega

theorem whole1_3 (c : Dev nD) (t : Fin cfg1.N) : (iblk1 V c 3 t : Vec Ideal S1x16 .f32) = (V c main_v0 : Mat 1 16) := by
  funext y
  unfold iblk1
  rw [View.read_apply]
  show V c main_v0 _ = V c main_v0 y
  congr 1
  funext a
  apply Fin.ext
  match a with
  | ⟨0, _⟩ => show win1_3.index t 0 * 1 + 1 * (y 0).val = (y 0).val; rw [(idx1 t).2.2.2.1.1]; omega
  | ⟨1, _⟩ => show win1_3.index t 1 * 16 + 1 * (y 1).val = (y 1).val; rw [(idx1 t).2.2.2.1.2]; omega

/-- What point t writes back is rows 200 t … of `relu (adj · s1 + b1) · W2`. -/
theorem flushed1 (c : Dev nD) (t : Fin cfg1.N) :
    (dat1 V c).flushed 4 t = ((cfg1.win 4).blk t).view.read (Elt Ideal) (support2 V c) := by
  show (cfg1.win 4).cut (grid1.coords t) ((dat1 V c).after 4 t) = _
  rw [after1_4]
  unfold out1_4
  rw [View.canon_unit_zero hz]
  simp only [View.ld_unit_zero (S := S200x10000) hz, View.ld_unit_zero (S := S10000x16) hz,
    View.ld_unit_zero (S := S1x16) hz, View.ld_unit_zero (S := S16x8) hz]
  rw [pass1_payload, whole1_1, whole1_2, whole1_3]
  funext y
  obtain ⟨r, j, rfl⟩ : ∃ (r : Fin 200) (j : Fin 8), y = ix2 r j := ⟨y 0, y 1, eq_ix2 y⟩
  have hN : cfg1.N = 50 := N_1
  have hp : t.val * 200 + r.val < 10000 := by have := t.isLt; have := r.isLt; omega
  rw [View.read_apply]
  have hemb : ((cfg1.win 4).blk t).view.emb (ix2 r j) = (ix2 (⟨t.val * 200 + r.val, hp⟩ : Fin 10000) j : S10000x8.Idx) := by
    funext a
    apply Fin.ext
    match a with
    | ⟨0, _⟩ => show win1_4.index t 0 * 200 + 1 * r.val = t.val * 200 + r.val; rw [(idx1 t).2.2.2.2.1]; omega
    | ⟨1, _⟩ => show win1_4.index t 1 * 8 + 1 * j.val = j.val; rw [(idx1 t).2.2.2.2.2]; omega
  show prod (relu (rowAffine (iblk1 V c 0 t) (V c main_v2 : Mat 10000 16) (V c main_v0 : Mat 1 16))) (V c main_arg4 : Mat 16 8) (ix2 r j)
    = support2 V c (((cfg1.win 4).blk t).view.emb (ix2 r j))
  rw [hemb]
  exact prod_row _ (fun k => relu_row (fun k' => rowAffine_row _ _
    (fun q => adjBlock1_apply V c t r q ⟨t.val * 200 + r.val, hp⟩ rfl) k') k) j

/-- An index of the first pass's output array lies in point t's block iff each coordinate is in the block's range. -/
theorem mem_blk1 (t : Fin cfg1.N) (i : S10000x8.Idx) :
    i ∈ ((cfg1.win 4).blk t).view.set ↔ ∀ a : Fin 2, win1_4.index t a * S200x8.size a ≤ (i a).val
      ∧ (i a).val < win1_4.index t a * S200x8.size a + S200x8.size a := by
  show i ∈ ((View.whole main_v3).slice (win1_4.rect t)).set ↔ _
  rw [View.set_slice_whole, Rect.mem_set_unit]
  exact Iff.rfl

/-- Row i lies in block i / 200. -/
theorem cover1 (i : S10000x8.Idx) : ∃ t : Fin cfg1.N, (cfg1.win 4).flush t = true ∧ i ∈ ((cfg1.win 4).blk t).view.set := by
  have hN : cfg1.N = 50 := N_1
  have h0 : (i 0).val < 10000 := (i 0).isLt
  have h1 : (i 1).val < 8 := (i 1).isLt
  refine ⟨⟨(i 0).val / 200, by omega⟩, flush1_4 _, ?_⟩
  rw [mem_blk1]
  intro a
  match a with
  | ⟨0, _⟩ =>
    show win1_4.index _ 0 * 200 ≤ (i 0).val ∧ (i 0).val < win1_4.index _ 0 * 200 + 200
    rw [(idx1 _).2.2.2.2.1]
    show (i 0).val / 200 * 200 ≤ (i 0).val ∧ (i 0).val < (i 0).val / 200 * 200 + 200
    omega
  | ⟨1, _⟩ =>
    show win1_4.index _ 1 * 8 ≤ (i 1).val ∧ (i 1).val < win1_4.index _ 1 * 8 + 8
    rw [(idx1 _).2.2.2.2.2]; omega

/-- The first pass's output array ends holding `relu (adj · s1 + b1) · W2`. -/
theorem final1 (c : Dev nD) : (dat1 V c).arrAt 4 cfg1.N = support2 V c :=
  (dat1 V c).arrAt_eq_of_cover 4 (support2 V c) (fun t _ => flushed1 V c t) cover1

/-! ## The second pass: 50 points, 200 adjacency rows each -/

/-- The printed index maps of the second pass's windows. -/
theorem idx2 : ∀ t : Fin cfg2.N, (win2_0.index t 0 = t.val ∧ win2_0.index t 1 = 0)
    ∧ (win2_1.index t 0 = 0 ∧ win2_1.index t 1 = 0) ∧ (win2_2.index t 0 = 0 ∧ win2_2.index t 1 = 0)
    ∧ (win2_3.index t 0 = t.val ∧ win2_3.index t 1 = 0) :=
  (by decide +kernel : ∀ t : Fin grid2.N, _)

/-- What the second pass leaves in its output array: the row-wise log-softmax of `adj · s2 + b2` of the arrays it finds. -/
def result (c : Dev nD) : Mat 10000 8 :=
  logSoftmaxJoined (rowAffine (V c main_arg1 : Mat 10000 10000) (V c main_v3 : Mat 10000 8) (V c main_v1 : Mat 1 8))

/-- The adjacency window at point t is rows 200 t … of the adjacency. -/
theorem adjBlock2_apply (c : Dev nD) (t : Fin cfg2.N) (r : Fin 200) (q : Fin 10000) (p : Fin 10000)
    (hp : p.val = t.val * 200 + r.val) :
    (iblk2 V c 0 t : Vec Ideal S200x10000 .f32) (ix2 r q) = (V c main_arg1 : Mat 10000 10000) (ix2 p q) := by
  have hi := (idx2 t).1
  unfold iblk2
  rw [View.read_apply]
  show V c main_arg1 _ = V c main_arg1 _
  congr 1
  funext a
  apply Fin.ext
  match a with
  | ⟨0, _⟩ => show win2_0.index t 0 * 200 + 1 * r.val = p.val; rw [hi.1, hp]; omega
  | ⟨1, _⟩ => show win2_0.index t 1 * 10000 + 1 * q.val = q.val; rw [hi.2]; omega

theorem whole2_1 (c : Dev nD) (t : Fin cfg2.N) : (iblk2 V c 1 t : Vec Ideal S10000x8 .f32) = (V c main_v3 : Mat 10000 8) := by
  funext y
  unfold iblk2
  rw [View.read_apply]
  show V c main_v3 _ = V c main_v3 y
  congr 1
  funext a
  apply Fin.ext
  match a with
  | ⟨0, _⟩ => show win2_1.index t 0 * 10000 + 1 * (y 0).val = (y 0).val; rw [(idx2 t).2.1.1]; omega
  | ⟨1, _⟩ => show win2_1.index t 1 * 8 + 1 * (y 1).val = (y 1).val; rw [(idx2 t).2.1.2]; omega

theorem whole2_2 (c : Dev nD) (t : Fin cfg2.N) : (iblk2 V c 2 t : Vec Ideal S1x8 .f32) = (V c main_v1 : Mat 1 8) := by
  funext y
  unfold iblk2
  rw [View.read_apply]
  show V c main_v1 _ = V c main_v1 y
  congr 1
  funext a
  apply Fin.ext
  match a with
  | ⟨0, _⟩ => show win2_2.index t 0 * 1 + 1 * (y 0).val = (y 0).val; rw [(idx2 t).2.2.1.1]; omega
  | ⟨1, _⟩ => show win2_2.index t 1 * 8 + 1 * (y 1).val = (y 1).val; rw [(idx2 t).2.2.1.2]; omega

/-- What point t writes back is rows 200 t … of the log-softmax of `adj · s2 + b2`. -/
theorem flushed2 (c : Dev nD) (t : Fin cfg2.N) :
    (dat2 V c).flushed 3 t = ((cfg2.win 3).blk t).view.read (Elt Ideal) (result V c) := by
  show (cfg2.win 3).cut (grid2.coords t) ((dat2 V c).after 3 t) = _
  rw [after2_3]
  unfold out2_3
  rw [View.canon_unit_zero hz]
  simp only [View.ld_unit_zero (S := S200x10000) hz, View.ld_unit_zero (S := S10000x8) hz, View.ld_unit_zero (S := S1x8) hz]
  rw [pass2_payload, whole2_1, whole2_2]
  funext y
  obtain ⟨r, j, rfl⟩ : ∃ (r : Fin 200) (j : Fin 8), y = ix2 r j := ⟨y 0, y 1, eq_ix2 y⟩
  have hN : cfg2.N = 50 := N_2
  have hp : t.val * 200 + r.val < 10000 := by have := t.isLt; have := r.isLt; omega
  rw [View.read_apply]
  have hemb : ((cfg2.win 3).blk t).view.emb (ix2 r j) = (ix2 (⟨t.val * 200 + r.val, hp⟩ : Fin 10000) j : S10000x8.Idx) := by
    funext a
    apply Fin.ext
    match a with
    | ⟨0, _⟩ => show win2_3.index t 0 * 200 + 1 * r.val = t.val * 200 + r.val; rw [(idx2 t).2.2.2.1]; omega
    | ⟨1, _⟩ => show win2_3.index t 1 * 8 + 1 * j.val = j.val; rw [(idx2 t).2.2.2.2]; omega
  show logSoftmaxJoined (rowAffine (iblk2 V c 0 t) (V c main_v3 : Mat 10000 8) (V c main_v1 : Mat 1 8)) (ix2 r j)
    = result V c (((cfg2.win 3).blk t).view.emb (ix2 r j))
  rw [hemb]
  exact logSoftmaxJoined_row (fun l => rowAffine_row _ _
    (fun q => adjBlock2_apply V c t r q ⟨t.val * 200 + r.val, hp⟩ rfl) l) j

/-- An index of the second pass's output array lies in point t's block iff each coordinate is in the block's range. -/
theorem mem_blk2 (t : Fin cfg2.N) (i : S10000x8.Idx) :
    i ∈ ((cfg2.win 3).blk t).view.set ↔ ∀ a : Fin 2, win2_3.index t a * S200x8.size a ≤ (i a).val
      ∧ (i a).val < win2_3.index t a * S200x8.size a + S200x8.size a := by
  show i ∈ ((View.whole main_v4).slice (win2_3.rect t)).set ↔ _
  rw [View.set_slice_whole, Rect.mem_set_unit]
  exact Iff.rfl

/-- Row i lies in block i / 200. -/
theorem cover2 (i : S10000x8.Idx) : ∃ t : Fin cfg2.N, (cfg2.win 3).flush t = true ∧ i ∈ ((cfg2.win 3).blk t).view.set := by
  have hN : cfg2.N = 50 := N_2
  have h0 : (i 0).val < 10000 := (i 0).isLt
  have h1 : (i 1).val < 8 := (i 1).isLt
  refine ⟨⟨(i 0).val / 200, by omega⟩, flush2_3 _, ?_⟩
  rw [mem_blk2]
  intro a
  match a with
  | ⟨0, _⟩ =>
    show win2_3.index _ 0 * 200 ≤ (i 0).val ∧ (i 0).val < win2_3.index _ 0 * 200 + 200
    rw [(idx2 _).2.2.2.1]
    show (i 0).val / 200 * 200 ≤ (i 0).val ∧ (i 0).val < (i 0).val / 200 * 200 + 200
    omega
  | ⟨1, _⟩ =>
    show win2_3.index _ 1 * 8 ≤ (i 1).val ∧ (i 1).val < win2_3.index _ 1 * 8 + 8
    rw [(idx2 _).2.2.2.2]; omega

/-- The second pass's output array ends holding the log-softmax of `adj · s2 + b2`. -/
theorem final2 (c : Dev nD) : (dat2 V c).arrAt 3 cfg2.N = result V c :=
  (dat2 V c).arrAt_eq_of_cover 3 (result V c) (fun t _ => flushed2 V c t) cover2

end Cert.GcnKernel

end
-- ==== Proof.KRun.lean ====
/-
  The kernel's run, read: after the three regions the result array holds the joined log-softmax of the logits of the
  argument arrays, and the arguments are unchanged.

  The buffer contents at the region boundaries are a fold from the launch memory: the two host reshapes turn the bias
  vectors into one-row matrices; the projection leaves `x · W1` in its output and nothing else moves; the first pass
  reads that array, the adjacency, the first bias row and `W2` and leaves `relu (adj · s1 + b1) · W2`; the second pass
  reads that array, the adjacency and the second bias row and leaves the log-softmax of `adj · s2 + b2`. A one-row
  matrix that is a reshaped vector, added to every row, is the vector added to every row (`rowAffine_reshape`), so the
  fold's last array is `logSoftmaxJoined (logits x adj W1 b1 W2 b2)`.

  The run itself is the library's launch theorem for a program of several regions over the generated segments, with
  the post read off the last boundary's contents: every unscoped buffer, the result among them, ends at the fold's
  last valuation.
-/
import proofs.«164230_g44289702756771_cont_8to1_c_1056_4_alg».proof.Proof.Gen.KernelIdeal.Frame
import proofs.«164230_g44289702756771_cont_8to1_c_1056_4_alg».proof.Proof.KBlocks
import Idealize.ShloMosaic.Lib.StableHlo.Run
import Idealize.ShloMosaic.Lib.ValueLayout

set_option maxRecDepth 16384

noncomputable section

open scoped BigOperators

namespace Cert.GcnKernel

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.GcnSpec

local notation "𝕄" => MT nD τ sig Unit (Elt Ideal) ℕ (UR sig nD τ) ℕ

variable (m : (ℓ : Loc nD τ sig) → Buf (Elt Ideal) ℓ) (ρ : Dev nD → PrngReg)

/-! ## A reshaped bias vector as a bias row -/

/-- A one-row matrix that is a vector reshaped, added to every row of `a · s`, is the vector added to every row. -/
theorem rowAffine_reshape {R K N : ℕ} (a : Mat R K) (s : Mat K N) (b : Vct N)
    (h : (⟨1, ![N]⟩ : Shape).ShapeCasts ⟨2, ![1, N]⟩) :
    rowAffine a s (shapeCast ⟨2, ![1, N]⟩ b h) = addRow (prod a s) b := by
  funext i
  obtain ⟨p, j, rfl⟩ : ∃ (p : Fin R) (j : Fin N), i = ix2 p j := ⟨i 0, i 1, eq_ix2 i⟩
  show prod a s (ix2 p j) + shapeCast ⟨2, ![1, N]⟩ b h (ix2 (0 : Fin 1) j) = prod a s (ix2 p j) + b (ix1 j)
  rw [shapeCast_a_1a_apply]

/-! ## The contents after the host reshapes -/

/-- A buffer neither reshape writes holds its launch contents at the first region's entry. -/
theorem W1_of_ne (c : Dev nD) (b : Ref sig .tc) (h0 : b ≠ main_v0) (h1 : b ≠ main_v1) :
    W1 m ρ c (Proc.devRef .tc b) = m ((c : Thread nD τ).loc b) :=
  (StableHlo.after_of_forall_not_mem (b := Proc.devRef .tc b) _ _ (List.forall_iff_forall_mem.mp (by
      simp only [hostOps0, List.Forall, StableHlo.reshape_writes, Finset.mem_singleton]
      exact ⟨StableHlo.devRef_ne_of_ne h0, StableHlo.devRef_ne_of_ne h1⟩))).trans rfl

/-- The first bias row is the first bias vector reshaped. -/
theorem W1_v0 (c : Dev nD) : (W1 m ρ c (Proc.devRef .tc main_v0) : Mat 1 16)
    = shapeCast S1x16 (m ((c : Thread nD τ).loc main_arg3) : Vct 16) shapeCasts_S16_S1x16 := by
  show StableHlo.after hostOps0 (W0 m ρ c) (Proc.devRef .tc main_v0) = _
  after_results
  rfl

/-- The second bias row is the second bias vector reshaped. -/
theorem W1_v1 (c : Dev nD) : (W1 m ρ c (Proc.devRef .tc main_v1) : Mat 1 8)
    = shapeCast S1x8 (m ((c : Thread nD τ).loc main_arg5) : Vct 8) shapeCasts_S8_S1x8 := by
  show StableHlo.after hostOps0 (W0 m ρ c) (Proc.devRef .tc main_v1) = _
  after_results
  rfl

/-! ## The fold through the region boundaries -/

/-- The adjacency at the first pass's entry is the launch adjacency. -/
theorem W2_arg1 (c : Dev nD) : W2 m ρ c (Proc.devRef .tc main_arg1) = m ((c : Thread nD τ).loc main_arg1) :=
  (W2_of_ne m ρ c main_arg1 (by decide)).trans (W1_of_ne m ρ c main_arg1 (by decide) (by decide))

/-- `W2` at the first pass's entry is the launch `W2`. -/
theorem W2_arg4 (c : Dev nD) : W2 m ρ c (Proc.devRef .tc main_arg4) = m ((c : Thread nD τ).loc main_arg4) :=
  (W2_of_ne m ρ c main_arg4 (by decide)).trans (W1_of_ne m ρ c main_arg4 (by decide) (by decide))

/-- The first bias row at the first pass's entry. -/
theorem W2_v0 (c : Dev nD) : (W2 m ρ c (Proc.devRef .tc main_v0) : Mat 1 16)
    = shapeCast S1x16 (m ((c : Thread nD τ).loc main_arg3) : Vct 16) shapeCasts_S16_S1x16 :=
  (W2_of_ne m ρ c main_v0 (by decide)).trans (W1_v0 m ρ c)

/-- The second bias row at the first pass's entry. -/
theorem W2_v1 (c : Dev nD) : (W2 m ρ c (Proc.devRef .tc main_v1) : Mat 1 8)
    = shapeCast S1x8 (m ((c : Thread nD τ).loc main_arg5) : Vct 8) shapeCasts_S8_S1x8 :=
  (W2_of_ne m ρ c main_v1 (by decide)).trans (W1_v1 m ρ c)

/-- The projection's output at the first pass's entry: `x · W1` of the launch arrays. -/
theorem W2_v2 (c : Dev nD) : (W2 m ρ c (Proc.devRef .tc main_v2) : Mat 10000 16)
    = prod (m ((c : Thread nD τ).loc main_arg0) : Mat 10000 128) (m ((c : Thread nD τ).loc main_arg2) : Mat 128 16) := by
  refine (W2_arr m ρ c 2).trans ?_
  rw [final0]
  unfold support1
  show prod (W1 m ρ c (Proc.devRef .tc main_arg0)) (W1 m ρ c (Proc.devRef .tc main_arg2)) = _
  rw [W1_of_ne m ρ c main_arg0 (by decide) (by decide), W1_of_ne m ρ c main_arg2 (by decide) (by decide)]

/-- The adjacency at the second pass's entry is the launch adjacency: the first pass only reads it. -/
theorem W3_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_arg1 m ρ c)

/-- The second bias row at the second pass's entry. -/
theorem W3_v1 (c : Dev nD) : (W3 m ρ c (Proc.devRef .tc main_v1) : Mat 1 8)
    = shapeCast S1x8 (m ((c : Thread nD τ).loc main_arg5) : Vct 8) shapeCasts_S8_S1x8 :=
  (W3_of_ne m ρ c main_v1 (by decide)).trans (W2_v1 m ρ c)

/-- The first pass's output at the second pass's entry: `relu (adj · (x · W1) + b1) · W2` of the launch arrays. -/
theorem W3_v3 (c : Dev nD) : (W3 m ρ c (Proc.devRef .tc main_v3) : Mat 10000 8)
    = prod (relu (addRow (prod (m ((c : Thread nD τ).loc main_arg1) : Mat 10000 10000)
        (prod (m ((c : Thread nD τ).loc main_arg0) : Mat 10000 128) (m ((c : Thread nD τ).loc main_arg2) : Mat 128 16)))
        (m ((c : Thread nD τ).loc main_arg3) : Vct 16))) (m ((c : Thread nD τ).loc main_arg4) : Mat 16 8) := by
  refine (W3_arr m ρ c 4).trans ?_
  rw [final1]
  unfold support2
  show prod (relu (rowAffine (W2 m ρ c (Proc.devRef .tc main_arg1)) (W2 m ρ c (Proc.devRef .tc main_v2))
    (W2 m ρ c (Proc.devRef .tc main_v0)))) (W2 m ρ c (Proc.devRef .tc main_arg4)) = _
  rw [W2_arg1, W2_v2, W2_v0, W2_arg4, rowAffine_reshape]

/-- The result array after the second pass: the joined log-softmax of the logits of the launch arrays. -/
theorem W4_v4 (c : Dev nD) : (W4 m ρ c (Proc.devRef .tc main_v4) : Mat 10000 8)
    = logSoftmaxJoined (logits (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))) := by
  refine (W4_arr m ρ c 3).trans ?_
  rw [final2]
  unfold result
  show logSoftmaxJoined (rowAffine (W3 m ρ c (Proc.devRef .tc main_arg1)) (W3 m ρ c (Proc.devRef .tc main_v3))
    (W3 m ρ c (Proc.devRef .tc main_v1))) = _
  rw [W3_arg1, W3_v3, W3_v1, rowAffine_reshape]
  rfl

/-! ## The run -/

set_option backward.isDefEq.respectTransparency.types false in
/-- Every weakly fair execution of the kernel's @main terminates, nothing faulting, with every unscoped buffer at the
    fold's last contents: so the result array and each argument are read off that valuation. -/
theorem run_fold : θ_run defs (onTc (τ := τ) (main (F := Ideal))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

/-- The kernel's run, read: the result array at the joined log-softmax of the logits of the launch arrays, the
    arguments unchanged. -/
theorem run : θ_run defs (onTc (τ := τ) (main (F := Ideal))) ⟨m, fun _ => 0, ρ⟩ (fun r => ∀ c : Dev nD,
      r.2.mem ((c.tc : Thread nD τ).loc main_v4)
        = logSoftmaxJoined (logits (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (W4_v4 m ρ c), (h c).2⟩) (run_fold m ρ)

end Cert.GcnKernel

end
-- ==== Proof.lean ====
/-
  A two-layer dense graph convolution with a row-wise log-softmax: the Pallas kernel against its jnp reference, on the
  extended reals.

  Both programs compute, from node features x, a dense adjacency adj, weights W1, W2 and biases b1, b2,
      z = adj · (relu (adj · (x · W1) + b1) · W2) + b2
  and the log-softmax of every row of z (Proof/Spec.lean). The kernel does it in three regions — the projection x · W1
  at one grid point; then two passes over the adjacency in blocks of 200 rows, the first leaving
  relu (adj · s1 + b1) · W2, the second the log-softmax of adj · s2 + b2 —, the reference as one host program. Every
  matrix product is the same sum over the contracted coordinate on both sides, row by row; only the tiling differs
  (Proof/KBody.lean, Proof/KBlocks.lean, Proof/KRun.lean for the kernel; Proof/RefValue.lean for the reference).

  The two sides differ in the last step: with M the row maximum and L the logarithm of the row's sum of shifted
  exponentials, the reference subtracts M and then L, the kernel subtracts L + M at once; and the reference joins M once
  more with minus infinity, which changes nothing. (z - M) - L = z - (L + M) needs z, M and L real: that is where the
  precondition is used — every input is finite, so the logits are real-valued, so are M and L (Proof/Finite.lean).

  The three frames are the generated ones (the reference's is its generated run with the result dropped); the ideal
  pass rewrote nothing, so `preserves` is `True`.
-/
import proofs.«164230_g44289702756771_cont_8to1_c_1056_4_alg».proof.Defs
import proofs.«164230_g44289702756771_cont_8to1_c_1056_4_alg».proof.Proof.Gen.Kernel
import proofs.«164230_g44289702756771_cont_8to1_c_1056_4_alg».proof.Proof.Gen.Kernel.Skeleton
import proofs.«164230_g44289702756771_cont_8to1_c_1056_4_alg».proof.Proof.Gen.Kernel.Launch
import proofs.«164230_g44289702756771_cont_8to1_c_1056_4_alg».proof.Proof.Gen.Kernel.Points
import proofs.«164230_g44289702756771_cont_8to1_c_1056_4_alg».proof.Proof.Gen.Kernel.Frame
import proofs.«164230_g44289702756771_cont_8to1_c_1056_4_alg».proof.Proof.Gen.KernelIdeal
import proofs.«164230_g44289702756771_cont_8to1_c_1056_4_alg».proof.Proof.Gen.KernelIdeal.Skeleton
import proofs.«164230_g44289702756771_cont_8to1_c_1056_4_alg».proof.Proof.Gen.KernelIdeal.Launch
import proofs.«164230_g44289702756771_cont_8to1_c_1056_4_alg».proof.Proof.Gen.KernelIdeal.Points
import proofs.«164230_g44289702756771_cont_8to1_c_1056_4_alg».proof.Proof.Gen.KernelIdeal.Frame
import proofs.«164230_g44289702756771_cont_8to1_c_1056_4_alg».proof.Proof.Gen.ReferenceIdeal
import proofs.«164230_g44289702756771_cont_8to1_c_1056_4_alg».proof.Proof.Gen.Pre_finite_inputs
import proofs.«164230_g44289702756771_cont_8to1_c_1056_4_alg».proof.Proof.RefRun
import proofs.«164230_g44289702756771_cont_8to1_c_1056_4_alg».proof.Proof.RefRead
import proofs.«164230_g44289702756771_cont_8to1_c_1056_4_alg».proof.Proof.RefValue
import proofs.«164230_g44289702756771_cont_8to1_c_1056_4_alg».proof.Proof.Finite
import proofs.«164230_g44289702756771_cont_8to1_c_1056_4_alg».proof.Proof.KRun
import Idealize.ShloMosaic.Adequacy
import Idealize.ShloMosaic.Init

noncomputable section

namespace Cert.Proof

open Idealize.ShloMosaic Idealize.SL.Sem Cert.GcnSpec

/-- The word-level kernel runs and keeps its arguments: the generated frame of its three regions. -/
theorem frame_kernel : Cert.frame_Kernel := fun m ρ _ => Cert.Kernel.Gen.frame m ρ

/-- The idealized kernel runs and keeps its arguments: the generated frame of its three regions. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the row-wise log-softmax of the same logits: the
    kernel's arrangement z - (L + M), the reference's (z - M) - L, equal because finite inputs make the logits real. -/
theorem algebraic : Cert.algebraic_KernelIdeal_ReferenceIdeal := by
  intro m ρ m' ρ' hpre hagree
  refine ⟨_, Cert.GcnKernel.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  obtain ⟨r0, r1, r2, r3, r4, r5⟩ := Cert.GcnFinite.allReal_of_pre _ _ _ _ _ _ (hpre c)
  rw [Cert.ReferenceIdeal.Read.val_main_v12_eq, Cert.GcnRef.ref_eq, e0, e1, e2, e3, e4, e5]
  exact (Cert.GcnFinite.logSoftmax_arrangements _ (Cert.GcnFinite.logits_real r0 r1 r2 r3 r4 r5)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
